-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S16x128x128 : Shape := ⟨3, ![16, 128, 128]⟩
abbrev S128x128 : Shape := ⟨2, ![128, 128]⟩
abbrev S128 : Shape := ⟨1, ![128]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel
  bcast_S_S16x128x128 : S_.BroadcastsInDim S16x128x128 (![] : Fin 0 → Fin S16x128x128.rank)
  reducesTo_S16x128x128_S_d0_1_2 : S16x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x128x128x64 .f32) (main_arg1 : FVec F S16x128x128x64 .f32) (main_arg2 : FVec F S16x128x128 .f32) (main_arg3 : FVec F S128x128 .f32) (main_arg4 : FVec F S128 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : FVec F S16x128x128x64 .f32 := Host.absf main_arg1
  let main_cst_0 : FVec F S_ .f32 := constant S_ .f32 0x7F800000#32
  let main_v5 : FVec F S16x128x128x64 .f32 := broadcastInDim S16x128x128x64 ![] bcast_S_S16x128x128x64 main_cst_0
  let main_v6 : IVec S16x128x128x64 1 := cmpf .olt main_v4 main_v5
  let main_c_1 : IVec S_ 1 := constantI S_ 1 1#1
  let main_v7 : IVec S_ 1 := (fun x v => Host.reduce IntOp.andi x v reducesTo_S16x128x128x64_S_d0_1_2_3 h_S_) main_v6 main_c_1
  let main_v8 : IVec S_ 1 := andi main_v3 main_v7
  let main_v9 : FVec F S16x128x128 .f32 := Host.absf main_arg2
  let main_cst_2 : FVec F S_ .f32 := constant S_ .f32 0x7F800000#32
  let main_v10 : FVec F S16x128x128 .f32 := broadcastInDim S16x128x128 ![] bcast_S_S16x128x128 main_cst_2
  let main_v11 : IVec S16x128x128 1 := cmpf .olt main_v9 main_v10
  let main_c_3 : IVec S_ 1 := constantI S_ 1 1#1
  let main_v12 : IVec S_ 1 := (fun x v => Host.reduce IntOp.andi x v reducesTo_S16x128x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16x128x128x64 : Shape := ⟨4, ![16, 128, 128, 64]⟩
abbrev S16x128x128 : Shape := ⟨3, ![16, 128, 128]⟩
abbrev S128x128 : Shape := ⟨2, ![128, 128]⟩
abbrev S128 : Shape := ⟨1, ![128]⟩
abbrev S64x128 : Shape := ⟨2, ![64, 128]⟩
abbrev S1x64x128x64 : Shape := ⟨4, ![1, 64, 128, 64]⟩
abbrev S1x64x128 : Shape := ⟨3, ![1, 64, 128]⟩
abbrev S64x128x64 : Shape := ⟨3, ![64, 128, 64]⟩
abbrev S64x128x1 : Shape := ⟨3, ![64, 128, 1]⟩
abbrev S64x64 : Shape := ⟨2, ![64, 64]⟩
abbrev S64 : Shape := ⟨1, ![64]⟩
abbrev S64x1 : Shape := ⟨2, ![64, 1]⟩
abbrev S1x128 : Shape := ⟨2, ![1, 128]⟩

abbrev nBuf : Space → Nat
  | .hbm => 8
  | .vmem => 11
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .f32⟩
  | .hbm, ⟨2, _⟩ => ⟨S16x128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S16x128x128, .f32⟩
  | .local _ .vmem, ⟨0, _⟩ => ⟨S1x64x128x64, .f32⟩
  | .local _ .vmem, ⟨1, _⟩ => ⟨S1x64x128x64, .f32⟩
  | .local _ .vmem, ⟨2, _⟩ => ⟨S1x64x128x64, .f32⟩
  | .local _ .vmem, ⟨3, _⟩ => ⟨S1x64x128x64, .f32⟩
  | .local _ .vmem, ⟨4, _⟩ => ⟨S1x64x128, .f32⟩
  | .local _ .vmem, ⟨5, _⟩ => ⟨S1x64x128, .f32⟩
  | .local _ .vmem, ⟨6, _⟩ => ⟨S64x128, .f32⟩
  | .local _ .vmem, ⟨7, _⟩ => ⟨S64x128, .f32⟩
  | .local _ .vmem, ⟨8, _⟩ => ⟨S128, .f32⟩
  | .local _ .vmem, ⟨9, _⟩ => ⟨S1x64x128, .f32⟩
  | .local _ .vmem, ⟨10, _⟩ => ⟨S1x64x128, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S128x128_S64x128_0_0 : S128x128.Slices ![0, 0] S64x128
  slices_S128x128_S64x128_64_0 : S128x128.Slices ![64, 0] S64x128
  inb_S1x64x128x64_S1x64x128x64_0_0_0_0 : ∀ a, (![0, 0, 0, 0] : Fin 4 → Nat) a + S1x64x128x64.size a ≤ S1x64x128x64.size a
  h_S1x64x128x64 : 0 < S1x64x128x64.numel
  shapeCasts_S1x64x128x64_S64x128x64 : S1x64x128x64.ShapeCasts S64x128x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S64x128x1 : S64x128.ShapeCasts S64x128x1
  broadcasts_S64x128x1_S64x128x64 : S64x128x1.Broadcasts S64x128x64
  reduces_S64x128x64_S64x64 : S64x128x64.Reduces [1] S64x64
  reduces_S64x128_S64 : S64x128.Reduces [1] S64
  shapeCasts_S64_S64x1 : S64.ShapeCasts S64x1
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S64x1_S64x128 : S64x1.Broadcasts S64x128
  broadcasts_S1x128_S64x128 : S1x128.Broadcasts S64x128
  shapeCasts_S64x128_S1x64x128 : S64x128.ShapeCasts S1x64x128
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x64.size a ≤ S16x128x128x64.size a
  hwx0_0 : ∀ i : grid0.Coords, EltTy.bits .f32 = 32 ∨ (Rect.block (s := S16x128x128x64) S1x64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x64.size a ≤ S16x128x128x64.size a
  hwx0_1 : ∀ i : grid0.Coords, EltTy.bits .f32 = 32 ∨ (Rect.block (s := S16x128x128x64) S1x64x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S16x128x128.size a
  hwx0_2 : ∀ i : grid0.Coords, EltTy.bits .f32 = 32 ∨ (Rect.block (s := S16x128x128) S1x64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x128.size a ≤ S16x128x128.size a
  hwx0_6 : ∀ i : grid0.Coords, EltTy.bits .f32 = 32 ∨ (Rect.block (s := S16x128x128) S1x64x128.size (cc0_transform_6 i) (hinb0_6 i)).WholeWords (EltTy.packing .f32)

variable [Facts₀]

def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg0) S1x64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S16x128x128 : Shape := ⟨3, ![16, 128, 128]⟩
abbrev S128x128 : Shape := ⟨2, ![128, 128]⟩
abbrev S128 : Shape := ⟨1, ![128]⟩
abbrev S16x128x128x128 : Shape := ⟨4, ![16, 128, 128, 128]⟩
abbrev S1x1x1x128 : Shape := ⟨4, ![1, 1, 1, 128]⟩
abbrev S16x128x128x1 : Shape := ⟨4, ![16, 128, 128, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .f32⟩
  | .hbm, ⟨2, _⟩ => ⟨S16x128x128, .f32⟩
  | .hbm, ⟨3, _⟩ => ⟨S128x128, .f32⟩
  | .hbm, ⟨4, _⟩ => ⟨S128, .f32⟩
  | .hbm, ⟨5, _⟩ => ⟨S16x128x128x128, .f32⟩
  | .hbm, ⟨6, _⟩ => ⟨S16x128x128x128, .f32⟩
  | .hbm, ⟨7, _⟩ => ⟨S1x1x1x128, .f32⟩
  | .hbm, ⟨8, _⟩ => ⟨S16x128x128x128, .f32⟩
  | .hbm, ⟨9, _⟩ => ⟨S16x128x128x128, .f32⟩
  | .hbm, ⟨10, _⟩ => ⟨S16x128x128x1, .f32⟩
  | .hbm, ⟨11, _⟩ => ⟨S16x128x128x128, .f32⟩
  | .hbm, ⟨12, _⟩ => ⟨S16x128x128x128, .f32⟩
  | .hbm, ⟨13, _⟩ => ⟨S_, .f32⟩
  | .hbm, ⟨14, _⟩ => ⟨S16x128x128, .f32⟩
  | .hbm, ⟨15, _⟩ => ⟨S_, .f32⟩
  | .hbm, ⟨16, _⟩ => ⟨S16x128x128, .f32⟩
  | .hbm, ⟨17, _⟩ => ⟨S16x128x128, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  concatenates_S16x128x128x64_S16x128x128x64_S16x128x128x128_d3 : Shape.Concatenates [S16x128x128x64, S16x128x128x64] S16x128x128x128 3
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  bcast_S16x128x128_S16x128x128x1_0_1_2 : S16x128x128.BroadcastsInDim S16x128x128x1 (![0, 1, 2] : Fin 3 → Fin S16x128x128x1.rank)
  bcast_S16x128x128x1_S16x128x128x128_0_1_2_3 : S16x128x128x1.BroadcastsInDim S16x128x128x128 (![0, 1, 2, 3] : Fin 4 → Fin S16x128x128x128.rank)
  reducesTo_S16x128x128x128_S16x128x128_d2 : S16x128x128x128.ReducesTo [2] S16x128x128
  h_S_ : 0 < S_.numel
  bcast_S_S16x128x128 : S_.BroadcastsInDim S16x128x128 (![] : Fin 0 → Fin S16x128x128.rank)
  dot_S16x128x128x128_S128x128_S16x128x128x128_3_0_012_1_n_n_wf : DotDims.WF S16x128x128x128 S128x128 S16x128x128x128 [3] [0] [0, 1, 2] [1] [] []

variable [Facts₀]

def dot_S16x128x128x128_S128x128_S16x128x128x128_3_0_012_1_n_n : DotDims S16x128x128x128 S128x128 S16x128x128x128 where
  lhsContracting := [3]
  rhsContracting := [0]
  lhsNonContracting := [0, 1, 2]
  rhsNonContracting := [1]
  lhsBatch := []
  rhsBatch := []
  wf := dot_S16x128x128x128_S128x128_S16x128x128x128_3_0_012_1_n_n_wf

class Facts : Prop extends Facts₀ where

variable [Facts]
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.BodyValue.lean ====
/-
  What one grid point computes, entry by entry.

  A grid point holds 64 query nodes p.  From its blocks — two feature blocks s₁, s₂ : [1, 64, 128, 64], the adjacency
  block a : [1, 64, 128], the two weight halves w₁, w₂ : [64, 128] and the bias β : [128] — the body forms, on the
  extended reals,

      pooled features   A₁(p, f) = Σ_j a(p, j) · s₁(p, j, f),   A₂ likewise,
      the degree        d(p)     = Σ_j a(p, j),
      and at (p, o)     max( (Σ_f A₁(p, f) · w₁(f, o) + Σ_f A₂(p, f) · w₂(f, o)) + d(p) · β(o), 0 ).

  The changes of float format in the body are the identity on the extended reals, the lane sums start from zero, and the
  two matrix products accumulate into zero, so nothing else remains.  Each stage is named and read at an index on its
  own; the body's value is their composition.
-/
import proofs.«160672_j57062935495223_2_alg».proof.Proof.Gen.KernelIdeal.Skeleton
import proofs.«160672_j57062935495223_2_alg».proof.Proof.LibLaneSums
import proofs.«160672_j57062935495223_2_alg».proof.Proof.LibPlainDot
import proofs.«160672_j57062935495223_2_alg».proof.Proof.LibUnitAxes
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ## The stages -/

/-- The adjacency block with its leading unit axis dropped. -/
def adjRows (a : FVec Ideal S1x64x128 .f32) : FVec Ideal S64x128 .f32 :=
  shapeCast S64x128 a shapeCasts_S1x64x128_S64x128

theorem adjRows_apply (a : FVec Ideal S1x64x128 .f32) (p : Fin 64) (j : Fin 128) :
    adjRows a (ix2 p j) = a (ix3 (0 : Fin 1) p j) :=
  shapeCast_1ab_ab_apply a _ p j

/-- A feature block with its leading unit axis dropped. -/
def featRows (s : FVec Ideal S1x64x128x64 .f32) : FVec Ideal S64x128x64 .f32 :=
  shapeCast S64x128x64 s shapeCasts_S1x64x128x64_S64x128x64

theorem featRows_apply (s : FVec Ideal S1x64x128x64 .f32) (p : Fin 64) (j : Fin 128) (f : Fin 64) :
    featRows s (ix3 p j f) = s (ix4 (0 : Fin 1) p j f) :=
  shapeCast_1abc_abc_apply s _ p j f

/-- Pooled features: the adjacency row spread over the feature axis, times the features, summed over the neighbours. -/
def pooled (a : FVec Ideal S64x128 .f32) (s : FVec Ideal S64x128x64 .f32) : FVec Ideal S64x64 .f32 :=
  multiReduction .add [1] S64x64
    (mulf (broadcastTo S64x128x64 (shapeCast S64x128x1 a shapeCasts_S64x128_S64x128x1) broadcasts_S64x128x1_S64x128x64) s)
    0x00000000#32 reduces_S64x128x64_S64x64 (.inl rfl) rfl

theorem pooled_apply (a : FVec Ideal S64x128 .f32) (s : FVec Ideal S64x128x64 .f32) (p : Fin 64) (f : Fin 64) :
    pooled a s (ix2 p f) = ∑ j : Fin 128, a (ix2 p j) * s (ix3 p j f) := by
  unfold pooled
  refine (LibLaneSums.sum_mid_apply _ _ _ _ _ p f).trans ?_
  refine Finset.sum_congr rfl fun j _ => ?_
  rw [mulf_apply, LibLaneSums.broadcastTo_ab1_abc_apply, LibLaneSums.shapeCast_ab_ab1_apply]

/-- The degree: the adjacency row summed over the neighbours. -/
def degree (a : FVec Ideal S64x128 .f32) : FVec Ideal S64 .f32 :=
  multiReduction .add [1] S64 a 0x00000000#32 reduces_S64x128_S64 (.inl rfl) rfl

theorem degree_apply (a : FVec Ideal S64x128 .f32) (p : Fin 64) :
    degree a (ix1 p) = ∑ j : Fin 128, a (ix2 p j) :=
  LibLaneSums.sum_last_apply _ _ _ _ _ p

/-- The dimension numbers of the body's two products: 64 × 64 by 64 × 128, the left operand's second axis contracted
    with the right operand's first. -/
abbrev D := dot_S64x64_S64x128_S64x128_1_0_0_1_n_n

theorem D_lhs0 (j : S64x128.Idx) (q : D.contr.Idx) : (D.lhsIdx j q 0).val = (j 0).val := by
  unfold DotDims.lhsIdx
  rw [dif_neg (show ¬(0 : Fin S64x64.rank) ∈ D.lhsBatch by decide), dif_pos (show (0 : Fin S64x64.rank) ∈ D.lhsNonContracting by decide)]
  rfl

theorem D_rhs1 (j : S64x128.Idx) (q : D.contr.Idx) : (D.rhsIdx j q 1).val = (j 1).val := by
  unfold DotDims.rhsIdx
  rw [dif_neg (show ¬(1 : Fin S64x128.rank) ∈ D.rhsBatch by decide), dif_pos (show (1 : Fin S64x128.rank) ∈ D.rhsNonContracting by decide)]
  rfl

/-- One feature product: pooled features times a weight half, both through a change of float format, into zero. -/
def product (x : FVec Ideal S64x64 .f32) (w : FVec Ideal S64x128 .f32) : FVec Ideal S64x128 .f32 :=
  matmul D none (truncf .bf16 x bitsLt_bf16_f32)
    (truncf .bf16 (shapeCast S64x128 w shapeCasts_S64x128_S64x128) bitsLt_bf16_f32) (constant S64x128 .f32 0x00000000#32)

theorem product_apply (x : FVec Ideal S64x64 .f32) (w : FVec Ideal S64x128 .f32) (p : Fin 64) (o : Fin 128) :
    product x w (ix2 p o) = ∑ f : Fin 64, x (ix2 p f) * w (ix2 f o) := by
  unfold product
  refine (LibPlainDot.matmul_zero_apply D rfl rfl rfl rfl D_lhs0 D_rhs1 none _ _ p o).trans ?_
  refine Finset.sum_congr rfl fun f _ => ?_
  rw [truncf_apply, truncf_apply, shapeCast_self]

/-! ## The body's value -/

/-- The body's result as the composition of its stages. -/
theorem pay_eq (s₁ s₂ : FVec Ideal S1x64x128x64 .f32) (a : FVec Ideal S1x64x128 .f32) (w₁ w₂ : FVec Ideal S64x128 .f32)
    (β : FVec Ideal S128 .f32) :
    k0_pay2 (F := Ideal) s₁ s₂ a w₁ w₂ β
      = maximumf
          (addf (addf (product (pooled (adjRows a) (featRows s₁)) w₁) (product (pooled (adjRows a) (featRows s₂)) w₂))
            (mulf (broadcastTo S64x128 (shapeCast S64x1 (degree (adjRows a)) shapeCasts_S64_S64x1) broadcasts_S64x1_S64x128)
              (broadcastTo S64x128 (shapeCast S1x128 β shapeCasts_S128_S1x128) broadcasts_S1x128_S64x128)))
          (broadcast S64x128 (Scalar.ofBits .f32 0x00000000#32)) := rfl

/-- The body's result at (p, o). -/
theorem pay_apply (s₁ s₂ : FVec Ideal S1x64x128x64 .f32) (a : FVec Ideal S1x64x128 .f32) (w₁ w₂ : FVec Ideal S64x128 .f32)
    (β : FVec Ideal S128 .f32) (p : Fin 64) (o : Fin 128) :
    k0_pay2 (F := Ideal) s₁ s₂ a w₁ w₂ β (ix2 p o)
      = max (((∑ f : Fin 64, (∑ j : Fin 128, a (ix3 (0 : Fin 1) p j) * s₁ (ix4 (0 : Fin 1) p j f)) * w₁ (ix2 f o))
              + (∑ f : Fin 64, (∑ j : Fin 128, a (ix3 (0 : Fin 1) p j) * s₂ (ix4 (0 : Fin 1) p j f)) * w₂ (ix2 f o)))
             + (∑ j : Fin 128, a (ix3 (0 : Fin 1) p j)) * β (ix1 o)) 0 := by
  rw [pay_eq, maximumf_apply, addf_apply, addf_apply, mulf_apply, broadcast_apply, product_apply, product_apply,
    LibUnitAxes.broadcastTo_a1_ab_apply, broadcastTo_1b_ab_apply, LibLaneSums.shapeCast_a_a1_apply, shapeCast_a_1a_apply,
    degree_apply]
  simp only [pooled_apply, adjRows_apply, featRows_apply]
  rw [Ideal.ofBits_def, Ideal.ofBits_zero_f32]

end Cert.KernelIdeal.Body

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.PoolLaw.lean ====
/-
  Pooling before the feature product.

  Fix one node.  Over its neighbours j it has a mask value a j and two feature rows s₁ j ·, s₂ j · ; the layer has two
  weight columns w₁, w₂ and a bias β.  Masking and pooling AFTER the affine map gives

      Σ_j ((Σ_f s₁ j f · w₁ f + Σ_f s₂ j f · w₂ f) + β) · a j ,

  and pooling the masked features FIRST gives

      (Σ_f (Σ_j a j · s₁ j f) · w₁ f + Σ_f (Σ_j a j · s₂ j f) · w₂ f) + (Σ_j a j) · β .

  Over the reals the two are equal: the products distribute over the sums, the two sums exchange, and the bias picks up
  the degree Σ_j a j.  On the extended reals distributivity fails at the infinities, so the equality is stated for
  finite entries, and proved by writing each entry as the image of a real number.
-/
import Mathlib.Data.EReal.Inv
import Mathlib.Algebra.BigOperators.Group.Finset.Basic
import Mathlib.Algebra.BigOperators.Ring.Finset
import Mathlib.Tactic.Ring
import proofs.«160672_j57062935495223_2_alg».proof.Proof.LibERealStats

noncomputable section

namespace Cert.PoolLaw

open Cert.LibERealStats
open scoped BigOperators

variable {J Φ : Type} [Fintype J] [Fintype Φ]

/-- Mask and pool after the affine map, over the reals. -/
def affineThenPoolR (a : J → ℝ) (s₁ s₂ : J → Φ → ℝ) (w₁ w₂ : Φ → ℝ) (β : ℝ) : ℝ :=
  ∑ j, ((∑ f, s₁ j f * w₁ f + ∑ f, s₂ j f * w₂ f) + β) * a j

/-- Pool the masked features first, over the reals. -/
def poolThenAffineR (a : J → ℝ) (s₁ s₂ : J → Φ → ℝ) (w₁ w₂ : Φ → ℝ) (β : ℝ) : ℝ :=
  (∑ f, (∑ j, a j * s₁ j f) * w₁ f + ∑ f, (∑ j, a j * s₂ j f) * w₂ f) + (∑ j, a j) * β

/-- Mask and pool after the affine map, on the extended reals. -/
def affineThenPool (a : J → EReal) (s₁ s₂ : J → Φ → EReal) (w₁ w₂ : Φ → EReal) (β : EReal) : EReal :=
  ∑ j, ((∑ f, s₁ j f * w₁ f + ∑ f, s₂ j f * w₂ f) + β) * a j

/-- Pool the masked features first, on the extended reals. -/
def poolThenAffine (a : J → EReal) (s₁ s₂ : J → Φ → EReal) (w₁ w₂ : Φ → EReal) (β : EReal) : EReal :=
  (∑ f, (∑ j, a j * s₁ j f) * w₁ f + ∑ f, (∑ j, a j * s₂ j f) * w₂ f) + (∑ j, a j) * β

/-- One pooled product: the weighted sum of pooled features is the pooled sum of weighted features. -/
theorem pooled_product (a : J → ℝ) (s : J → Φ → ℝ) (w : Φ → ℝ) :
    ∑ f, (∑ j, a j * s j f) * w f = ∑ j, (∑ f, s j f * w f) * a j := by
  simp only [Finset.sum_mul]
  rw [Finset.sum_comm]
  exact Finset.sum_congr rfl fun j _ => Finset.sum_congr rfl fun f _ => by ring

/-- The law over the reals. -/
theorem real_law (a : J → ℝ) (s₁ s₂ : J → Φ → ℝ) (w₁ w₂ : Φ → ℝ) (β : ℝ) :
    affineThenPoolR a s₁ s₂ w₁ w₂ β = poolThenAffineR a s₁ s₂ w₁ w₂ β := by
  unfold affineThenPoolR poolThenAffineR
  rw [pooled_product a s₁ w₁, pooled_product a s₂ w₂, Finset.sum_mul, ← Finset.sum_add_distrib,
    ← Finset.sum_add_distrib]
  exact Finset.sum_congr rfl fun j _ => by ring

/-- On images of reals the first form is the image of the real form. -/
theorem affineThenPool_coe (a : J → ℝ) (s₁ s₂ : J → Φ → ℝ) (w₁ w₂ : Φ → ℝ) (β : ℝ) :
    affineThenPool (fun j => (a j : EReal)) (fun j f => (s₁ j f : EReal)) (fun j f => (s₂ j f : EReal))
        (fun f => (w₁ f : EReal)) (fun f => (w₂ f : EReal)) (β : EReal)
      = ((affineThenPoolR a s₁ s₂ w₁ w₂ β : ℝ) : EReal) := by
  simp only [affineThenPool, affineThenPoolR, coe_sum, EReal.coe_add, EReal.coe_mul]

/-- On images of reals the second form is the image of the real form. -/
theorem poolThenAffine_coe (a : J → ℝ) (s₁ s₂ : J → Φ → ℝ) (w₁ w₂ : Φ → ℝ) (β : ℝ) :
    poolThenAffine (fun j => (a j : EReal)) (fun j f => (s₁ j f : EReal)) (fun j f => (s₂ j f : EReal))
        (fun f => (w₁ f : EReal)) (fun f => (w₂ f : EReal)) (β : EReal)
      = ((poolThenAffineR a s₁ s₂ w₁ w₂ β : ℝ) : EReal) := by
  simp only [poolThenAffine, poolThenAffineR, coe_sum, EReal.coe_add, EReal.coe_mul]

/-- The law on the extended reals, for finite entries. -/
theorem law (a : J → EReal) (s₁ s₂ : J → Φ → EReal) (w₁ w₂ : Φ → EReal) (β : EReal)
    (ha : ∀ j, IsReal (a j)) (hs₁ : ∀ j f, IsReal (s₁ j f)) (hs₂ : ∀ j f, IsReal (s₂ j f))
    (hw₁ : ∀ f, IsReal (w₁ f)) (hw₂ : ∀ f, IsReal (w₂ f)) (hβ : IsReal β) :
    affineThenPool a s₁ s₂ w₁ w₂ β = poolThenAffine a s₁ s₂ w₁ w₂ β := by
  choose a' ha' using ha
  choose s₁' hs₁' using hs₁
  choose s₂' hs₂' using hs₂
  choose w₁' hw₁' using hw₁
  choose w₂' hw₂' using hw₂
  obtain ⟨β', rfl⟩ := hβ
  obtain rfl : a = fun j => (a' j : EReal) := funext ha'
  obtain rfl : s₁ = fun j f => (s₁' j f : EReal) := funext fun j => funext (hs₁' j)
  obtain rfl : s₂ = fun j f => (s₂' j f : EReal) := funext fun j => funext (hs₂' j)
  obtain rfl : w₁ = fun f => (w₁' f : EReal) := funext hw₁'
  obtain rfl : w₂ = fun f => (w₂' f : EReal) := funext hw₂'
  rw [affineThenPool_coe, poolThenAffine_coe, real_law]

end Cert.PoolLaw

end
-- ==== Proof.LayerSpec.lean ====
/-
  The layer's output as one function of its arrays.

  For a batch b, a query node r and an output feature o, from the feature arrays s₁, s₂ : [16, 128, 128, 64], the
  adjacency a : [16, 128, 128], the two weight halves w₁, w₂ : [64, 128] and the bias β : [128],

      out(b, r, o) = max( (Σ_f (Σ_j a(b,r,j)·s₁(b,r,j,f))·w₁(f,o) + Σ_f (Σ_j a(b,r,j)·s₂(b,r,j,f))·w₂(f,o))
                          + (Σ_j a(b,r,j))·β(o), 0 )

  — the masked features pooled over the neighbours j first, then the feature product, the bias taken with the degree,
  then the rectifier.  For finite entries this is also the rectifier of the mask-and-pool of the affine map applied edge
  by edge (the law of pooling before the feature product).
-/
import proofs.«160672_j57062935495223_2_alg».proof.Proof.PoolLaw
import Idealize.ShloMosaic.Lib.ValueIdx
import Idealize.ShloMosaic.Lib.Pipeline.Value
import Mathlib.Algebra.BigOperators.Fin

noncomputable section

namespace Cert.Layer

open Idealize.ShloMosaic Idealize.ShloMosaic.ValueIdx Cert.LibERealStats

/-- The output at (b, r, o): pooled features through the two weight halves, the bias with the degree, rectified. -/
def outAt (s₁ s₂ : (⟨4, ![16, 128, 128, 64]⟩ : Shape).Idx → EReal) (a : (⟨3, ![16, 128, 128]⟩ : Shape).Idx → EReal)
    (w₁ w₂ : (⟨2, ![64, 128]⟩ : Shape).Idx → EReal) (β : (⟨1, ![128]⟩ : Shape).Idx → EReal)
    (b : Fin 16) (r o : Fin 128) : EReal :=
  max (PoolLaw.poolThenAffine (fun j : Fin 128 => a (ix3 b r j)) (fun (j : Fin 128) (f : Fin 64) => s₁ (ix4 b r j f))
    (fun (j : Fin 128) (f : Fin 64) => s₂ (ix4 b r j f)) (fun f : Fin 64 => w₁ (ix2 f o)) (fun f : Fin 64 => w₂ (ix2 f o))
    (β (ix1 o))) 0

/-- The output array. -/
def out (s₁ s₂ : (⟨4, ![16, 128, 128, 64]⟩ : Shape).Idx → EReal) (a : (⟨3, ![16, 128, 128]⟩ : Shape).Idx → EReal)
    (w₁ w₂ : (⟨2, ![64, 128]⟩ : Shape).Idx → EReal) (β : (⟨1, ![128]⟩ : Shape).Idx → EReal) :
    (⟨3, ![16, 128, 128]⟩ : Shape).Idx → EReal :=
  fun i => outAt s₁ s₂ a w₁ w₂ β ⟨(i 0).val, (i 0).isLt⟩ ⟨(i 1).val, (i 1).isLt⟩ ⟨(i 2).val, (i 2).isLt⟩

theorem out_ix3 (s₁ s₂ : (⟨4, ![16, 128, 128, 64]⟩ : Shape).Idx → EReal) (a : (⟨3, ![16, 128, 128]⟩ : Shape).Idx → EReal)
    (w₁ w₂ : (⟨2, ![64, 128]⟩ : Shape).Idx → EReal) (β : (⟨1, ![128]⟩ : Shape).Idx → EReal) (b : Fin 16) (r o : Fin 128) :
    out s₁ s₂ a w₁ w₂ β (ix3 b r o) = outAt s₁ s₂ a w₁ w₂ β b r o := rfl

/-- For finite entries the output is the rectified mask-and-pool of the edgewise affine map. -/
theorem outAt_eq_affineThenPool (s₁ s₂ : (⟨4, ![16, 128, 128, 64]⟩ : Shape).Idx → EReal)
    (a : (⟨3, ![16, 128, 128]⟩ : Shape).Idx → EReal) (w₁ w₂ : (⟨2, ![64, 128]⟩ : Shape).Idx → EReal)
    (β : (⟨1, ![128]⟩ : Shape).Idx → EReal)
    (hs₁ : ∀ i, IsReal (s₁ i)) (hs₂ : ∀ i, IsReal (s₂ i)) (ha : ∀ i, IsReal (a i)) (hw₁ : ∀ i, IsReal (w₁ i))
    (hw₂ : ∀ i, IsReal (w₂ i)) (hβ : ∀ i, IsReal (β i)) (b : Fin 16) (r o : Fin 128) :
    max (PoolLaw.affineThenPool (fun j : Fin 128 => a (ix3 b r j)) (fun (j : Fin 128) (f : Fin 64) => s₁ (ix4 b r j f))
        (fun (j : Fin 128) (f : Fin 64) => s₂ (ix4 b r j f)) (fun f : Fin 64 => w₁ (ix2 f o)) (fun f : Fin 64 => w₂ (ix2 f o))
        (β (ix1 o))) 0
      = outAt s₁ s₂ a w₁ w₂ β b r o := by
  unfold outAt
  rw [PoolLaw.law _ _ _ _ _ _ (fun j => ha _) (fun j f => hs₁ _) (fun j f => hs₂ _) (fun f => hw₁ _) (fun f => hw₂ _) (hβ _)]

/-! ## The two halves of the weight

The weight [128, 128] acts on the joined features: its rows 0 … 63 on the first feature array, its rows 64 … 127 on the
second.  A sum over the 128 joined features is the sum over the first 64 plus the sum over the last 64. -/

/-- Row f of the first half. -/
def lo (f : Fin 64) : Fin 128 := ⟨f.val, by omega⟩
/-- Row f of the second half. -/
def hi (f : Fin 64) : Fin 128 := ⟨64 + f.val, by omega⟩

theorem slices_lo : (⟨2, ![128, 128]⟩ : Shape).Slices ![0, 0] ⟨2, ![64, 128]⟩ := by decide
theorem slices_hi : (⟨2, ![128, 128]⟩ : Shape).Slices ![64, 0] ⟨2, ![64, 128]⟩ := by decide

/-- Rows 0 … 63 of the weight. -/
def lowHalf (w : (⟨2, ![128, 128]⟩ : Shape).Idx → EReal) : (⟨2, ![64, 128]⟩ : Shape).Idx → EReal :=
  extractStridedSlice ⟨2, ![64, 128]⟩ ![0, 0] w slices_lo
/-- Rows 64 … 127 of the weight. -/
def highHalf (w : (⟨2, ![128, 128]⟩ : Shape).Idx → EReal) : (⟨2, ![64, 128]⟩ : Shape).Idx → EReal :=
  extractStridedSlice ⟨2, ![64, 128]⟩ ![64, 0] w slices_hi

theorem lowHalf_apply (w : (⟨2, ![128, 128]⟩ : Shape).Idx → EReal) (f : Fin 64) (o : Fin 128) :
    lowHalf w (ix2 f o) = w (ix2 (lo f) o) :=
  extractStridedSlice_apply _ w slices_lo (ix2 f o) (ix2 (lo f) o) fun ax => match ax with
    | ⟨0, _⟩ => by show f.val = 0 + f.val; omega
    | ⟨1, _⟩ => by show o.val = 0 + o.val; omega

theorem highHalf_apply (w : (⟨2, ![128, 128]⟩ : Shape).Idx → EReal) (f : Fin 64) (o : Fin 128) :
    highHalf w (ix2 f o) = w (ix2 (hi f) o) :=
  extractStridedSlice_apply _ w slices_hi (ix2 f o) (ix2 (hi f) o) fun ax => match ax with
    | ⟨0, _⟩ => by show 64 + f.val = 64 + f.val; rfl
    | ⟨1, _⟩ => by show o.val = 0 + o.val; omega

theorem isReal_lowHalf {w : (⟨2, ![128, 128]⟩ : Shape).Idx → EReal} (hw : ∀ i, IsReal (w i)) (i : (⟨2, ![64, 128]⟩ : Shape).Idx) :
    IsReal (lowHalf w i) := hw _
theorem isReal_highHalf {w : (⟨2, ![128, 128]⟩ : Shape).Idx → EReal} (hw : ∀ i, IsReal (w i)) (i : (⟨2, ![64, 128]⟩ : Shape).Idx) :
    IsReal (highHalf w i) := hw _

/-- A sum over the 128 joined features splits at 64. -/
theorem sum_halves {M : Type} [AddCommMonoid M] (g : Fin 128 → M) :
    ∑ k : Fin 128, g k = ∑ f : Fin 64, g (lo f) + ∑ f : Fin 64, g (hi f) :=
  Fin.sum_univ_add (a := 64) (b := 64) g

end Cert.Layer

end
-- ==== Proof.KernelArray.lean ====
/-
  The kernel's output array.

  The grid has 16 × 2 points: point (b, h) takes batch b and the query nodes 64·h … 64·h + 63.  Its feature blocks are
  rows 64·h + p of batch b of the two feature arrays, its adjacency block the same rows of the adjacency, its weight
  blocks the two halves of the weight (cut on the host before the launch) and its bias block the bias; what it writes
  back is rows 64·h + p of batch b of the output.  So block (b, h) of the output is the restriction of ONE function of
  the argument arrays, the layer's output, and since the 32 blocks tile the array, the array ends holding that function.
-/
import proofs.«160672_j57062935495223_2_alg».proof.Proof.Gen.KernelIdeal.Value
import proofs.«160672_j57062935495223_2_alg».proof.Proof.BodyValue
import proofs.«160672_j57062935495223_2_alg».proof.Proof.LayerSpec
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## One grid point, over variables -/

/-- Row p of half h. -/
def rowOf (h : Fin 2) (p : Fin 64) : Fin 128 := ⟨h.val * 64 + p.val, by omega⟩

/-- If the blocks a point holds are rows 64·h + p of batch b of the arrays (and the weight halves and the bias whole),
    the body's value at (p, o) is the layer's output at (b, 64·h + p, o). -/
theorem point_value (s₁ s₂ : FVec Ideal S16x128x128x64 .f32) (a : FVec Ideal S16x128x128 .f32) (w₁ w₂ : FVec Ideal S64x128 .f32)
    (β : FVec Ideal S128 .f32) (B0 B1 : FVec Ideal S1x64x128x64 .f32) (B2 : FVec Ideal S1x64x128 .f32)
    (B3 B4 : FVec Ideal S64x128 .f32) (B5 : FVec Ideal S128 .f32) (b : Fin 16) (h : Fin 2)
    (h0 : ∀ (u : Fin 1) (p : Fin 64) (j : Fin 128) (f : Fin 64), B0 (ix4 u p j f) = s₁ (ix4 b (rowOf h p) j f))
    (h1 : ∀ (u : Fin 1) (p : Fin 64) (j : Fin 128) (f : Fin 64), B1 (ix4 u p j f) = s₂ (ix4 b (rowOf h p) j f))
    (h2 : ∀ (u : Fin 1) (p : Fin 64) (j : Fin 128), B2 (ix3 u p j) = a (ix3 b (rowOf h p) j))
    (h3 : B3 = w₁) (h4 : B4 = w₂) (h5 : B5 = β) (p : Fin 64) (o : Fin 128) :
    k0_pay2 (F := Ideal) B0 B1 B2 B3 B4 B5 (ix2 p o) = Layer.outAt s₁ s₂ a w₁ w₂ β b (rowOf h p) o := by
  subst h3 h4 h5
  rw [Body.pay_apply]
  unfold Layer.outAt PoolLaw.poolThenAffine
  simp only [h0, h1, h2]

/-! ## The index maps, decided over the 32 grid points -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output's block index is (b, h, 0) with b < 16 and h < 2. -/
theorem facts6 : ∀ t : Fin cfg0.N, win0_6.index t (0 : Fin 3) < 16 ∧ win0_6.index t (1 : Fin 3) < 2 ∧ win0_6.index t (2 : Fin 3) = 0 :=
  (by decide +kernel : ∀ t : Fin grid0.N, _)
/-- The first feature array's block index is (b, h, 0, 0). -/
theorem facts0 : ∀ t : Fin cfg0.N, win0_0.index t (0 : Fin 4) = win0_6.index t (0 : Fin 3) ∧ win0_0.index t (1 : Fin 4) = win0_6.index t (1 : Fin 3)
    ∧ win0_0.index t (2 : Fin 4) = 0 ∧ win0_0.index t (3 : Fin 4) = 0 :=
  (by decide +kernel : ∀ t : Fin grid0.N, _)
/-- The second feature array's block index is (b, h, 0, 0). -/
theorem facts1 : ∀ t : Fin cfg0.N, win0_1.index t (0 : Fin 4) = win0_6.index t (0 : Fin 3) ∧ win0_1.index t (1 : Fin 4) = win0_6.index t (1 : Fin 3)
    ∧ win0_1.index t (2 : Fin 4) = 0 ∧ win0_1.index t (3 : Fin 4) = 0 :=
  (by decide +kernel : ∀ t : Fin grid0.N, _)
/-- The adjacency's block index is (b, h, 0). -/
theorem facts2 : ∀ t : Fin cfg0.N, win0_2.index t (0 : Fin 3) = win0_6.index t (0 : Fin 3) ∧ win0_2.index t (1 : Fin 3) = win0_6.index t (1 : Fin 3)
    ∧ win0_2.index t (2 : Fin 3) = 0 :=
  (by decide +kernel : ∀ t : Fin grid0.N, _)
/-- The weight halves and the bias are one block each. -/
theorem facts3 : ∀ t : Fin cfg0.N, win0_3.index t (0 : Fin 2) = 0 ∧ win0_3.index t (1 : Fin 2) = 0 :=
  (by decide +kernel : ∀ t : Fin grid0.N, _)
theorem facts4 : ∀ t : Fin cfg0.N, win0_4.index t (0 : Fin 2) = 0 ∧ win0_4.index t (1 : Fin 2) = 0 :=
  (by decide +kernel : ∀ t : Fin grid0.N, _)
theorem facts5 : ∀ t : Fin cfg0.N, win0_5.index t (0 : Fin 1) = 0 :=
  (by decide +kernel : ∀ t : Fin grid0.N, _)
/-- Every block (b, h) of the output is some point's. -/
theorem onto6 : ∀ (q0 : Fin 16) (q1 : Fin 2), ∃ t : Fin cfg0.N, win0_6.index t = ![q0.val, q1.val, 0] :=
  (by decide +kernel : ∀ (q0 : Fin 16) (q1 : Fin 2), ∃ t : Fin grid0.N, win0_6.index t = ![q0.val, q1.val, 0])

/-- The batch of point t. -/
def batchOf (t : Fin cfg0.N) : Fin 16 := ⟨win0_6.index t (0 : Fin 3), (facts6 t).1⟩
/-- The half of the query nodes point t takes. -/
def halfOf (t : Fin cfg0.N) : Fin 2 := ⟨win0_6.index t (1 : Fin 3), (facts6 t).2.1⟩

/-! ## The weight halves the host cuts before the launch -/

theorem V_lowHalf (c : Dev nD) : (V m c main_v0 : S64x128.Idx → EReal) = Layer.lowHalf (m ((c : Thread nD τ).loc main_arg3)) := by
  dsimp only [Gen.V, Gen.hostOps0]; after_results; rfl

theorem V_highHalf (c : Dev nD) : (V m c main_v1 : S64x128.Idx → EReal) = Layer.highHalf (m ((c : Thread nD τ).loc main_arg3)) := by
  dsimp only [Gen.V, Gen.hostOps0]; after_results; rfl

/-! ## Each window's block at a point -/

theorem read0 (c : Dev nD) (t : Fin cfg0.N) (u : Fin 1) (p : Fin 64) (j : Fin 128) (f : Fin 64) :
    iblk m c 0 t (ix4 u p j f) = V m c main_arg0 (ix4 (batchOf t) (rowOf (halfOf t) p) j f) := by
  show V m c main_arg0 (((cfg0.win 0).blk t).view.emb (ix4 u p j f)) = _
  refine congrArg (V m c main_arg0) (funext fun ax => Fin.ext ?_)
  obtain ⟨e0, e1, e2, e3⟩ := facts0 t
  have hu : u.val = 0 := by omega
  match ax with
  | ⟨0, _⟩ => show win0_0.index t (0 : Fin 4) * 1 + 1 * u.val = win0_6.index t (0 : Fin 3); omega
  | ⟨1, _⟩ => show win0_0.index t (1 : Fin 4) * 64 + 1 * p.val = win0_6.index t (1 : Fin 3) * 64 + p.val; omega
  | ⟨2, _⟩ => show win0_0.index t (2 : Fin 4) * 128 + 1 * j.val = j.val; omega
  | ⟨3, _⟩ => show win0_0.index t (3 : Fin 4) * 64 + 1 * f.val = f.val; omega

theorem read1 (c : Dev nD) (t : Fin cfg0.N) (u : Fin 1) (p : Fin 64) (j : Fin 128) (f : Fin 64) :
    iblk m c 1 t (ix4 u p j f) = V m c main_arg1 (ix4 (batchOf t) (rowOf (halfOf t) p) j f) := by
  show V m c main_arg1 (((cfg0.win 1).blk t).view.emb (ix4 u p j f)) = _
  refine congrArg (V m c main_arg1) (funext fun ax => Fin.ext ?_)
  obtain ⟨e0, e1, e2, e3⟩ := facts1 t
  have hu : u.val = 0 := by omega
  match ax with
  | ⟨0, _⟩ => show win0_1.index t (0 : Fin 4) * 1 + 1 * u.val = win0_6.index t (0 : Fin 3); omega
  | ⟨1, _⟩ => show win0_1.index t (1 : Fin 4) * 64 + 1 * p.val = win0_6.index t (1 : Fin 3) * 64 + p.val; omega
  | ⟨2, _⟩ => show win0_1.index t (2 : Fin 4) * 128 + 1 * j.val = j.val; omega
  | ⟨3, _⟩ => show win0_1.index t (3 : Fin 4) * 64 + 1 * f.val = f.val; omega

theorem read2 (c : Dev nD) (t : Fin cfg0.N) (u : Fin 1) (p : Fin 64) (j : Fin 128) :
    iblk m c 2 t (ix3 u p j) = V m c main_arg2 (ix3 (batchOf t) (rowOf (halfOf t) p) j) := by
  show V m c main_arg2 (((cfg0.win 2).blk t).view.emb (ix3 u p j)) = _
  refine congrArg (V m c main_arg2) (funext fun ax => Fin.ext ?_)
  obtain ⟨e0, e1, e2⟩ := facts2 t
  have hu : u.val = 0 := by omega
  match ax with
  | ⟨0, _⟩ => show win0_2.index t (0 : Fin 3) * 1 + 1 * u.val = win0_6.index t (0 : Fin 3); omega
  | ⟨1, _⟩ => show win0_2.index t (1 : Fin 3) * 64 + 1 * p.val = win0_6.index t (1 : Fin 3) * 64 + p.val; omega
  | ⟨2, _⟩ => show win0_2.index t (2 : Fin 3) * 128 + 1 * j.val = j.val; omega

theorem read3 (c : Dev nD) (t : Fin cfg0.N) : (iblk m c 3 t : S64x128.Idx → EReal) = V m c main_v0 := by
  funext y
  show V m c main_v0 (((cfg0.win 3).blk t).view.emb y) = V m c main_v0 y
  refine congrArg (V m c main_v0) (funext fun ax => Fin.ext ?_)
  obtain ⟨e0, e1⟩ := facts3 t
  match ax with
  | ⟨0, _⟩ => show win0_3.index t (0 : Fin 2) * 64 + 1 * (y 0).val = (y 0).val; omega
  | ⟨1, _⟩ => show win0_3.index t (1 : Fin 2) * 128 + 1 * (y 1).val = (y 1).val; omega

theorem read4 (c : Dev nD) (t : Fin cfg0.N) : (iblk m c 4 t : S64x128.Idx → EReal) = V m c main_v1 := by
  funext y
  show V m c main_v1 (((cfg0.win 4).blk t).view.emb y) = V m c main_v1 y
  refine congrArg (V m c main_v1) (funext fun ax => Fin.ext ?_)
  obtain ⟨e0, e1⟩ := facts4 t
  match ax with
  | ⟨0, _⟩ => show win0_4.index t (0 : Fin 2) * 64 + 1 * (y 0).val = (y 0).val; omega
  | ⟨1, _⟩ => show win0_4.index t (1 : Fin 2) * 128 + 1 * (y 1).val = (y 1).val; omega

theorem read5 (c : Dev nD) (t : Fin cfg0.N) : (iblk m c 5 t : S128.Idx → EReal) = V m c main_arg4 := by
  funext y
  show V m c main_arg4 (((cfg0.win 5).blk t).view.emb y) = V m c main_arg4 y
  refine congrArg (V m c main_arg4) (funext fun ax => Fin.ext ?_)
  have e0 := facts5 t
  match ax with
  | ⟨0, _⟩ => show win0_5.index t (0 : Fin 1) * 128 + 1 * (y 0).val = (y 0).val; omega

/-! ## What a point writes back, and the array after the run -/

/-- The layer's output of the arrays as the region finds them. -/
abbrev result (c : Dev nD) : S16x128x128.Idx → EReal :=
  Layer.out (V m c main_arg0) (V m c main_arg1) (V m c main_arg2) (V m c main_v0) (V m c main_v1) (V m c main_arg4)

/-- What point t writes back is block t of the layer's output. -/
theorem flushed_eq (c : Dev nD) (t : Fin cfg0.N) :
    (dats m 0 c).flushed 6 t = ((cfg0.win 6).blk t).view.read (Elt Ideal) (result m c) := by
  rw [Value.flushed6]
  refine funext fun (y : S1x64x128.Idx) => ?_
  show out0_6 (iblk m c 0 t) (iblk m c 1 t) (iblk m c 2 t) (iblk m c 3 t) (iblk m c 4 t) (iblk m c 5 t) y
    = result m c (((cfg0.win 6).blk t).view.emb y)
  unfold out0_6
  rw [Value.canon6_eq]
  simp only [View.ld_unit_zero (S := S1x64x128x64) hz4, View.ld_unit_zero (S := S1x64x128) hz3,
    View.ld_unit_zero (S := S64x128) hz2, View.ld_unit_zero (S := S128) hz1]
  have ey : Value.ix6_0 y = ix2 (⟨(y 1).val, (y 1).isLt⟩ : Fin 64) (⟨(y 2).val, (y 2).isLt⟩ : Fin 128) :=
    funext fun ax => match ax with | ⟨0, _⟩ => rfl | ⟨1, _⟩ => rfl
  have eemb : ((cfg0.win 6).blk t).view.emb y
      = ix3 (batchOf t) (rowOf (halfOf t) (⟨(y 1).val, (y 1).isLt⟩ : Fin 64)) (⟨(y 2).val, (y 2).isLt⟩ : Fin 128) := by
    funext ax; apply Fin.ext
    obtain ⟨e0, e1, e2⟩ := facts6 t
    have hy0 : (y 0).val < 1 := (y 0).isLt
    match ax with
    | ⟨0, _⟩ => show win0_6.index t (0 : Fin 3) * 1 + 1 * (y 0).val = win0_6.index t (0 : Fin 3); omega
    | ⟨1, _⟩ => show win0_6.index t (1 : Fin 3) * 64 + 1 * (y 1).val = win0_6.index t (1 : Fin 3) * 64 + (y 1).val; omega
    | ⟨2, _⟩ => show win0_6.index t (2 : Fin 3) * 128 + 1 * (y 2).val = (y 2).val; omega
  show k0_pay2 (F := Ideal) (iblk m c 0 t) (iblk m c 1 t) (iblk m c 2 t) (iblk m c 3 t) (iblk m c 4 t) (iblk m c 5 t) (Value.ix6_0 y) = _
  rw [ey, eemb]
  exact (point_value (V m c main_arg0) (V m c main_arg1) (V m c main_arg2) (V m c main_v0) (V m c main_v1) (V m c main_arg4)
    (iblk m c 0 t) (iblk m c 1 t) (iblk m c 2 t) (iblk m c 3 t) (iblk m c 4 t) (iblk m c 5 t) (batchOf t) (halfOf t)
    (read0 m c t) (read1 m c t) (read2 m c t) (read3 m c t) (read4 m c t) (read5 m c t)
    (⟨(y 1).val, (y 1).isLt⟩ : Fin 64) (⟨(y 2).val, (y 2).isLt⟩ : Fin 128)).trans
    (Layer.out_ix3 (V m c main_arg0) (V m c main_arg1) (V m c main_arg2) (V m c main_v0) (V m c main_v1) (V m c main_arg4)
      (batchOf t) (rowOf (halfOf t) (⟨(y 1).val, (y 1).isLt⟩ : Fin 64)) (⟨(y 2).val, (y 2).isLt⟩ : Fin 128)).symm

/-- An index of the array is in point t's block iff each coordinate is in the block's range on its axis. -/
theorem mem_blk (t : Fin cfg0.N) (i : S16x128x128.Idx) :
    i ∈ ((cfg0.win 6).blk t).view.set ↔ ∀ a : Fin 3, win0_6.index t a * S1x64x128.size a ≤ (i a).val ∧ (i a).val < win0_6.index t a * S1x64x128.size a + S1x64x128.size a := by
  show i ∈ ((View.whole main_v2).slice (win0_6.rect t)).set ↔ _
  rw [View.set_slice_whole, Rect.mem_set_unit]
  exact Iff.rfl

/-- The 32 blocks tile the output: row r of batch b is in the block of the point (b, r / 64). -/
theorem cover (i : S16x128x128.Idx) : ∃ t : Fin cfg0.N, (cfg0.win 6).flush t = true ∧ i ∈ ((cfg0.win 6).blk t).view.set := by
  have hi0 : (i 0).val < 16 := (i 0).isLt
  have hi1 : (i 1).val < 128 := (i 1).isLt
  have hi2 : (i 2).val < 128 := (i 2).isLt
  obtain ⟨t, ht⟩ := onto6 ⟨(i 0).val, hi0⟩ ⟨(i 1).val / 64, by omega⟩
  have q0 : win0_6.index t (0 : Fin 3) = (i 0).val := congrFun ht 0
  have q1 : win0_6.index t (1 : Fin 3) = (i 1).val / 64 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 64 ≤ (i 1).val ∧ (i 1).val < win0_6.index t (1 : Fin 3) * 64 + 64; omega
  | ⟨2, _⟩ => show win0_6.index t (2 : Fin 3) * 128 ≤ (i 2).val ∧ (i 2).val < win0_6.index t (2 : Fin 3) * 128 + 128; omega

/-- The layer's output of the argument arrays as launched. -/
abbrev resultOf (c : Dev nD) : S16x128x128.Idx → EReal :=
  Layer.out (m ((c : Thread nD τ).loc main_arg0)) (m ((c : Thread nD τ).loc main_arg1)) (m ((c : Thread nD τ).loc main_arg2))
    (Layer.lowHalf (m ((c : Thread nD τ).loc main_arg3))) (Layer.highHalf (m ((c : Thread nD τ).loc main_arg3)))
    (m ((c : Thread nD τ).loc main_arg4))

/-- The output array after the run is the layer's output of the argument arrays. -/
theorem final (c : Dev nD) : (dats m 0 c).arrAt 6 cfg0.N = resultOf m c := by
  rw [(dats m 0 c).arrAt_eq_of_cover 6 (result m c) (fun t _ => flushed_eq m c t) (cover)]
  show Layer.out (V m c main_arg0) (V m c main_arg1) (V m c main_arg2) (V m c main_v0) (V m c main_v1) (V m c main_arg4) = _
  rw [V_main_arg0, V_main_arg1, V_main_arg2, V_main_arg4, V_lowHalf, V_highHalf]

/-- The run: every weakly fair execution terminates with the output array at the layer's output of the argument
    arrays and the arguments unchanged. -/
theorem run : θ_run defs (onTc (τ := τ) (main (F := Ideal))) ⟨m, fun _ => 0, ρ⟩ fun r => ∀ c : Dev nD,
      r.2.mem ((c : Thread nD τ).loc main_v2) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference computes the layer's output.

  Entry (b, r, o) of the reference's result is the rectifier of

      0 + Σ_j ((Σ_{k < 128} x(b,r,j,k) · w(k,o)) + β(o)) · a(b,r,j),

  where x joins the two feature arrays along the feature axis: x(…, k) is s₁(…, k) for k < 64 and s₂(…, k − 64) from 64
  on.  The sum over the 128 joined features splits at 64 into the first feature array against rows 0 … 63 of the weight
  plus the second against rows 64 … 127, which is the affine map applied edge by edge, masked and pooled; for finite
  entries that is the layer's output (the law of pooling before the feature product).
-/
import proofs.«160672_j57062935495223_2_alg».proof.Proof.Gen.ReferenceIdeal.Read
import proofs.«160672_j57062935495223_2_alg».proof.Proof.LayerSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.LibERealStats

/-! ## Where each stage reads its operands -/

theorem at_sum (b : Fin 16) (r o j : Fin 128) : idx_main_v8 (ix3 b r o) j = ix4 b r j o :=
  funext fun a => Fin.ext (by match a with | ⟨0, _⟩ => rfl | ⟨1, _⟩ => rfl | ⟨2, _⟩ => rfl | ⟨3, _⟩ => rfl)

theorem at_left (b : Fin 16) (r j o k : Fin 128) : lidx_main_v1 (ix4 b r j o) k = ix4 b r j k :=
  funext fun a => Fin.ext (by match a with | ⟨0, _⟩ => rfl | ⟨1, _⟩ => rfl | ⟨2, _⟩ => rfl | ⟨3, _⟩ => rfl)

theorem at_right (b : Fin 16) (r j o k : Fin 128) : ridx_main_v1 (ix4 b r j o) k = ix2 k o :=
  funext fun a => Fin.ext (by match a with | ⟨0, _⟩ => rfl | ⟨1, _⟩ => rfl)

theorem at_bias (b : Fin 16) (r j o : Fin 128) : idx_main_v2 (idx_main_v3 (ix4 b r j o)) = ix1 o :=
  funext fun a => Fin.ext (by match a with | ⟨0, _⟩ => rfl)

theorem at_mask (b : Fin 16) (r j o : Fin 128) : idx_main_v5 (idx_main_v6 (ix4 b r j o)) = ix3 b r j :=
  funext fun a => Fin.ext (by match a with | ⟨0, _⟩ => rfl | ⟨1, _⟩ => rfl | ⟨2, _⟩ => rfl)

/-! ## The joined features -/

/-- Below 64 the joined array reads the first feature array. -/
theorem joined_lo (x0 x1 : (⟨S16x128x128x64, .f32⟩ : BufTy).Contents (Elt Ideal)) (b : Fin 16) (r j : Fin 128) (f : Fin 64) :
    val_main_v0 (F := Ideal) x0 x1 (ix4 b r j (Layer.lo f)) = x0 (ix4 b r j f) := by
  unfold val_main_v0
  exact concatenate_pair_apply_left (3 : Fin S16x128x128x128.rank) x0 x1 concatenates_S16x128x128x64_S16x128x128x64_S16x128x128x128_d3
    (ix4 b r j (Layer.lo f)) rfl (ix4 b r j f)
    (fun a => match a with | ⟨0, _⟩ => rfl | ⟨1, _⟩ => rfl | ⟨2, _⟩ => rfl | ⟨3, _⟩ => rfl)

/-- From 64 on it reads the second, 64 places back. -/
theorem joined_hi (x0 x1 : (⟨S16x128x128x64, .f32⟩ : BufTy).Contents (Elt Ideal)) (b : Fin 16) (r j : Fin 128) (f : Fin 64) :
    val_main_v0 (F := Ideal) x0 x1 (ix4 b r j (Layer.hi f)) = x1 (ix4 b r j f) := by
  unfold val_main_v0
  exact concatenate_pair_apply_right (3 : Fin S16x128x128x128.rank) x0 x1 concatenates_S16x128x128x64_S16x128x128x64_S16x128x128x128_d3
    (ix4 b r j (Layer.hi f)) rfl rfl (ix4 b r j f)
    (fun a ha => match a, ha with
      | ⟨0, _⟩, _ => rfl | ⟨1, _⟩, _ => rfl | ⟨2, _⟩, _ => rfl | ⟨3, _⟩, ha => absurd rfl ha)
    (by show f.val + 64 = 64 + f.val; omega)

/-- The contraction over the 128 joined features is the first feature array against the weight's first half plus the
    second against its second half. -/
theorem contraction (x0 x1 : (⟨S16x128x128x64, .f32⟩ : BufTy).Contents (Elt Ideal)) (x3 : (⟨S128x128, .f32⟩ : BufTy).Contents (Elt Ideal))
    (b : Fin 16) (r j o : Fin 128) :
    ∑ k : Fin 128, val_main_v0 (F := Ideal) x0 x1 (ix4 b r j k) * x3 (ix2 k o)
      = ∑ f : Fin 64, x0 (ix4 b r j f) * Layer.lowHalf x3 (ix2 f o) + ∑ f : Fin 64, x1 (ix4 b r j f) * Layer.highHalf x3 (ix2 f o) := by
  rw [Layer.sum_halves]
  simp only [joined_lo, joined_hi, Layer.lowHalf_apply, Layer.highHalf_apply]

/-! ## The result -/

/-- Entry (b, r, o) of the reference's result: the affine map edge by edge, masked, pooled and rectified. -/
theorem result_apply (x0 x1 : (⟨S16x128x128x64, .f32⟩ : BufTy).Contents (Elt Ideal)) (x2 : (⟨S16x128x128, .f32⟩ : BufTy).Contents (Elt Ideal))
    (x3 : (⟨S128x128, .f32⟩ : BufTy).Contents (Elt Ideal)) (x4 : (⟨S128, .f32⟩ : BufTy).Contents (Elt Ideal))
    (b : Fin 16) (r o : Fin 128) :
    val_main_v9 (F := Ideal) x0 x1 x2 x3 x4 (ix3 b r o)
      = max (PoolLaw.affineThenPool (fun j : Fin 128 => x2 (ix3 b r j)) (fun (j : Fin 128) (f : Fin 64) => x0 (ix4 b r j f))
          (fun (j : Fin 128) (f : Fin 64) => x1 (ix4 b r j f)) (fun f : Fin 64 => Layer.lowHalf x3 (ix2 f o))
          (fun f : Fin 64 => Layer.highHalf x3 (ix2 f o)) (x4 (ix1 o))) 0 := by
  rw [val_main_v9_apply, val_main_v8_apply, val_main_call0_v0_apply, val_main_call0_cst_apply, val_main_cst_apply]
  simp only [at_sum, val_main_v7_apply, val_main_v4_apply, val_main_v1_apply, val_main_v3_apply, val_main_v2_apply,
    val_main_v6_apply, val_main_v5_apply, at_left, at_right, at_bias, at_mask, contraction, Ideal.maximumf_def,
    Ideal.addf_def, Ideal.mulf_def, Ideal.ofBits_def, Ideal.ofBits_zero_f32, zero_add]
  rfl

/-- For finite inputs the reference's result is the layer's output of its arguments. -/
theorem result_eq (x0 x1 : (⟨S16x128x128x64, .f32⟩ : BufTy).Contents (Elt Ideal)) (x2 : (⟨S16x128x128, .f32⟩ : BufTy).Contents (Elt Ideal))
    (x3 : (⟨S128x128, .f32⟩ : BufTy).Contents (Elt Ideal)) (x4 : (⟨S128, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i)) :
    val_main_v9 (F := Ideal) x0 x1 x2 x3 x4 = Layer.out x0 x1 x2 (Layer.lowHalf x3) (Layer.highHalf x3) x4 := by
  funext i
  obtain ⟨b, r, o, rfl⟩ : ∃ (b : Fin 16) (r o : Fin 128), i = ix3 b r o := ⟨i 0, i 1, i 2, eq_ix3 i⟩
  rw [result_apply, Layer.out_ix3,
    Layer.outAt_eq_affineThenPool x0 x1 x2 (Layer.lowHalf x3) (Layer.highHalf x3) x4 h0 h1 h2 (Layer.isReal_lowHalf h3)
      (Layer.isReal_highHalf h3) h4]

end Cert.ReferenceIdeal.RefValue

end
-- ==== Proof.FiniteInputs.lean ====
/-
  From the precondition to finite entries.

  The precondition is the conjunction, over the five argument arrays, of "every entry x has |x| < +∞", each taken as an
  `and` over all the array's entries.  On the extended reals |x| = max x (−x) is below +∞ exactly when x is neither
  infinity, that is, when x is the image of a real number.
-/
import proofs.«160672_j57062935495223_2_alg».proof.Pre_finite_inputs
import proofs.«160672_j57062935495223_2_alg».proof.Proof.Gen.Pre_finite_inputs
import proofs.«160672_j57062935495223_2_alg».proof.Proof.LibERealStats
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx Cert.LibERealStats

instance : Subsingleton S_.Idx := ⟨fun a b => funext fun d => d.elim0⟩

/-- An extended real whose absolute value compares below the float +∞ is the image of a real. -/
theorem isReal_of_lt_inf (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  by_cases hlt : max x (-x) < ⊤
  · exact isReal_of_abs_lt_top hlt
  · exfalso
    have h' : BitVec.ofBool (decide (max x (-x) < ⊤)) = 1#1 := h
    rw [decide_eq_false hlt] at h'
    exact absurd h' (by decide)

variable [Facts]

/-- Under the precondition every entry of every argument array is the image of a real. -/
theorem finite_of_pre (a0 a1 : FVec Ideal S16x128x128x64 .f32) (a2 : FVec Ideal S16x128x128 .f32) (a3 : FVec Ideal S128x128 .f32)
    (a4 : FVec Ideal S128 .f32) (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [fn, fn_part1] at h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨fun i => isReal_of_lt_inf _ (Host.reduce_andi_all _ _ _ _ _ e0 i),
    fun i => isReal_of_lt_inf _ (Host.reduce_andi_all _ _ _ _ _ e1 i),
    fun i => isReal_of_lt_inf _ (Host.reduce_andi_all _ _ _ _ _ e2 i),
    fun i => isReal_of_lt_inf _ (Host.reduce_andi_all _ _ _ _ _ e3 i),
    fun i => isReal_of_lt_inf _ (Host.reduce_andi_all _ _ _ _ _ e4 i)⟩

end Cert.Pre_finite_inputs.Finite

end
-- ==== Proof.lean ====
/-
  A graph-convolution layer with masked sum-pooling, computed two ways, is one function on the extended reals.

  The arrays: two edge-feature arrays s₁, s₂ : [16, 128, 128, 64] (batch, query node, neighbour, feature), an adjacency
  mask a : [16, 128, 128], a weight w : [128, 128] acting on the 128 joined features, and a bias β : [128].

  The reference joins the two feature arrays along the feature axis, applies the affine map edge by edge, masks,
  sum-pools over the neighbours and rectifies:

      ref(b, r, o) = max( Σ_j ((Σ_{k < 128} x(b,r,j,k) · w(k,o)) + β(o)) · a(b,r,j), 0 ).

  The kernel pools the masked features over the neighbours FIRST and only then takes the feature product, with the
  weight cut into its two halves, the bias taken with the degree Σ_j a(b,r,j):

      ker(b, r, o) = max( (Σ_f (Σ_j a·s₁)(f) · w(f,o) + Σ_f (Σ_j a·s₂)(f) · w(64+f,o)) + (Σ_j a(b,r,j)) · β(o), 0 ).

  The two agree because products distribute over the sums and the two sums exchange.  On the extended reals that law
  fails at the infinities, so it is used for finite entries only, which is what the precondition gives
  (Proof/FiniteInputs.lean); the law itself is Proof/PoolLaw.lean.  The kernel works on a grid of 16 × 2 points, each
  taking 64 query nodes of one batch; what one point computes is Proof/BodyValue.lean, that the 32 blocks are the
  restrictions of one function of the argument arrays and tile the output is Proof/KernelArray.lean, and that the
  reference's result is that same function is Proof/RefValue.lean.  The changes of float format inside the kernel are
  the identity on the extended reals, and its two matrix products and its lane sums are plain finite sums there.

  The three frames are the generated ones (the reference's is its generated run with the result dropped), and the
  idealization rewrote no operation, so the fourth conjunct is trivial.
-/
import proofs.«160672_j57062935495223_2_alg».proof.Defs
import proofs.«160672_j57062935495223_2_alg».proof.Proof.Gen.Kernel
import proofs.«160672_j57062935495223_2_alg».proof.Proof.Gen.Kernel.Skeleton
import proofs.«160672_j57062935495223_2_alg».proof.Proof.Gen.Kernel.Launch
import proofs.«160672_j57062935495223_2_alg».proof.Proof.Gen.Kernel.Points
import proofs.«160672_j57062935495223_2_alg».proof.Proof.Gen.Kernel.Frame
import proofs.«160672_j57062935495223_2_alg».proof.Proof.Gen.KernelIdeal
import proofs.«160672_j57062935495223_2_alg».proof.Proof.Gen.KernelIdeal.Skeleton
import proofs.«160672_j57062935495223_2_alg».proof.Proof.Gen.KernelIdeal.Launch
import proofs.«160672_j57062935495223_2_alg».proof.Proof.Gen.KernelIdeal.Points
import proofs.«160672_j57062935495223_2_alg».proof.Proof.Gen.KernelIdeal.Frame
import proofs.«160672_j57062935495223_2_alg».proof.Proof.Gen.ReferenceIdeal
import proofs.«160672_j57062935495223_2_alg».proof.Proof.Gen.Pre_finite_inputs
import proofs.«160672_j57062935495223_2_alg».proof.Proof.Gen.KernelIdeal.Value
import proofs.«160672_j57062935495223_2_alg».proof.Proof.Gen.ReferenceIdeal.Run
import proofs.«160672_j57062935495223_2_alg».proof.Proof.Gen.ReferenceIdeal.Read
import proofs.«160672_j57062935495223_2_alg».proof.Proof.KernelArray
import proofs.«160672_j57062935495223_2_alg».proof.Proof.RefValue
import proofs.«160672_j57062935495223_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the output at the layer's output of the
    arguments: the kernel by its 32 blocks, the reference by the law of pooling before the feature product, for the
    finite entries the precondition gives. -/
theorem algebraic : Cert.algebraic_KernelIdeal_ReferenceIdeal := by
  intro m ρ m' ρ' hpre hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4⟩ := Cert.Pre_finite_inputs.Finite.finite_of_pre _ _ _ _ _ (hpre c)
  rw [(hagree c).1, (hagree c).2.1, (hagree c).2.2.1, (hagree c).2.2.2.1, (hagree c).2.2.2.2,
    Cert.ReferenceIdeal.Read.val_main_v9_eq]
  exact Cert.ReferenceIdeal.RefValue.result_eq _ _ _ _ _ f0 f1 f2 f3 f4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
